-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x128x1024 : Shape := ⟨3, ![2, 128, 1024]⟩
abbrev S1024x1024 : Shape := ⟨2, ![1024, 1024]⟩
abbrev S1024 : Shape := ⟨1, ![1024]⟩
abbrev S_ : Shape := ⟨0, ![]⟩

class Facts : Prop where
  bcast_S_S2x128x1024 : S_.BroadcastsInDim S2x128x1024 (![] : Fin 0 → Fin S2x128x1024.rank)
  reducesTo_S2x128x1024_S_d0_1_2 : S2x128x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x128x1024 .f32) (main_arg1 : FVec F S1024x1024 .f32) (main_arg2 : FVec F S1024x1024 .f32) (main_arg3 : FVec F S1024x1024 .f32) (main_arg4 : FVec F S1024 .f32) : IVec S_ 1 :=
  let main_v0 : FVec F S2x128x1024 .f32 := Host.absf main_arg0
  let main_cst : FVec F S_ .f32 := constant S_ .f32 0x7F800000#32
  let main_v1 : FVec F S2x128x1024 .f32 := broadcastInDim S2x128x1024 ![] bcast_S_S2x128x1024 main_cst
  let main_v2 : IVec S2x128x1024 1 := cmpf .olt main_v0 main_v1
  let main_c : IVec S_ 1 := constantI S_ 1 1#1
  let main_v3 : IVec S_ 1 := (fun x v => Host.reduce IntOp.andi x v reducesTo_S2x128x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x128x1024 : Shape := ⟨3, ![2, 128, 1024]⟩
abbrev S1024x1024 : Shape := ⟨2, ![1024, 1024]⟩
abbrev S1024 : Shape := ⟨1, ![1024]⟩
abbrev S_ : Shape := ⟨0, ![]⟩
abbrev S256x1024 : Shape := ⟨2, ![256, 1024]⟩
abbrev S256x1024x1024 : Shape := ⟨3, ![256, 1024, 1024]⟩
abbrev S16x1024 : Shape := ⟨2, ![16, 1024]⟩
abbrev S128x1024 : Shape := ⟨2, ![128, 1024]⟩
abbrev S128 : Shape := ⟨1, ![128]⟩
abbrev S16x128 : Shape := ⟨2, ![16, 128]⟩
abbrev S16x128x1024 : Shape := ⟨3, ![16, 128, 1024]⟩
abbrev S1x128 : Shape := ⟨2, ![1, 128]⟩
abbrev S16x128x1 : Shape := ⟨3, ![16, 128, 1]⟩
abbrev S1x128x1024 : Shape := ⟨3, ![1, 128, 1024]⟩

abbrev nBuf : Space → Nat
  | .hbm => 15
  | .vmem => 16
  | .smem => 0
  | _ => 0

abbrev bufTy : (tb : Table) → Fin (tcTables nBuf tb) → BufTy
  | .hbm, ⟨0, _⟩ => ⟨S2x128x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S256x1024x1024, .f32⟩
  | .hbm, ⟨14, _⟩ => ⟨S2x128x1024, .f32⟩
  | .local _ .vmem, ⟨0, _⟩ => ⟨S16x1024, .f32⟩
  | .local _ .vmem, ⟨1, _⟩ => ⟨S16x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x128x1024, .f32⟩
  | .local _ .vmem, ⟨15, _⟩ => ⟨S16x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  reducesTo_S1024x1024_S1024_d1 : S1024x1024.ReducesTo [1] S1024
  h_S_ : 0 < S_.numel
  bcast_S_S1024 : S_.BroadcastsInDim S1024 (![] : Fin 0 → Fin S1024.rank)
  shapeCasts_S2x128x1024_S256x1024 : S2x128x1024.ShapeCasts S256x1024
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S128x1024_S128x1024_0_0 : ∀ a, (![0, 0] : Fin 2 → Nat) a + S128x1024.size a ≤ S128x1024.size a
  h_S128x1024 : 0 < S128x1024.numel
  inb_S128_S128_0 : ∀ a, (![0] : Fin 1 → Nat) a + S128.size a ≤ S128.size a
  h_S128 : 0 < S128.numel
  shapeCasts_S128_S128 : S128.ShapeCasts S128
  bitsLt_bf16_f32 : FTy.bits .bf16 < FTy.bits .f32
  shapeCasts_S128_S1x128 : S128.ShapeCasts S1x128
  broadcasts_S1x128_S16x128 : S1x128.Broadcasts S16x128
  natLt_1_32 : 1 < 32
  inb_S16x128_S16x128_0_0 : ∀ a, (![0, 0] : Fin 2 → Nat) a + S16x128.size a ≤ S16x128.size a
  h_S16x128 : 0 < S16x128.numel
  shapeCasts_S16x128_S16x128x1 : S16x128.ShapeCasts S16x128x1
  shapeCasts_S128x1024_S1x128x1024 : S128x1024.ShapeCasts S1x128x1024
  broadcasts_S16x128x1_S16x128x1024 : S16x128x1.Broadcasts S16x128x1024
  broadcasts_S1x128x1024_S16x128x1024 : S1x128x1024.Broadcasts S16x128x1024
  inb_S16x128x1024_S16x128x1024_0_0_0 : ∀ a, (![0, 0, 0] : Fin 3 → Nat) a + S16x128x1024.size a ≤ S16x128x1024.size a
  h_S16x128x1024 : 0 < S16x128x1024.numel
  shapeCasts_S256x1024_S2x128x1024 : S256x1024.ShapeCasts S2x128x1024
  dot_S16x1024_S128x1024_S16x128_1_1_0_0_n_n_wf : DotDims.WF S16x1024 S128x1024 S16x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024.size a ≤ S256x1024.size a
  hwx0_0 : ∀ i : grid0.Coords, EltTy.bits .f32 = 32 ∨ (Rect.block (s := S256x1024) S16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S1024x1024.size a
  hwx0_1 : ∀ i : grid0.Coords, EltTy.bits .f32 = 32 ∨ (Rect.block (s := S1024x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S1024x1024.size a
  hwx0_2 : ∀ i : grid0.Coords, EltTy.bits .f32 = 32 ∨ (Rect.block (s := S1024x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S1024.size a
  hwx0_3 : ∀ i : grid0.Coords, EltTy.bits .f32 = 32 ∨ (Rect.block (s := S1024) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S1024.size a
  hwx0_4 : ∀ i : grid0.Coords, EltTy.bits .f32 = 32 ∨ (Rect.block (s := S1024) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S256x1024.size a
  hwx0_5 : ∀ i : grid0.Coords, EltTy.bits .f32 = 32 ∨ (Rect.block (s := S256x1024) S16x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x128.size a ≤ S256x1024.size a
  hwx0_6 : ∀ i : grid0.Coords, EltTy.bits .f32 = 32 ∨ (Rect.block (s := S256x1024) S16x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x128x1024.size a ≤ S256x1024x1024.size a
  hwx0_7 : ∀ i : grid0.Coords, EltTy.bits .f32 = 32 ∨ (Rect.block (s := S256x1024x1024) S16x128x1024.size (cc0_transform_7 i) (hinb0_7 i)).WholeWords (EltTy.packing .f32)

variable [Facts₀]

def dot_S16x1024_S128x1024_S16x128_1_1_0_0_n_n : DotDims S16x1024 S128x1024 S16x128 where
  lhsContracting := [1]
  rhsContracting := [1]
  lhsNonContracting := [0]
  rhsNonContracting := [0]
  lhsBatch := []
  rhsBatch := []
  wf := dot_S16x1024_S128x1024_S16x128_1_1_0_0_n_n_wf

abbrev win0_0 : Pipeline.Window sig grid0 :=
  Pipeline.Window.ofSpec (Memref.whole main_v3) S16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S16x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S16x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_2) S16x128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x128x1024 : Shape := ⟨3, ![2, 128, 1024]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩
abbrev S256x1024 : Shape := ⟨2, ![256, 1024]⟩
abbrev S256x1024x1 : Shape := ⟨3, ![256, 1024, 1]⟩
abbrev S1x1024x1024 : Shape := ⟨3, ![1, 1024, 1024]⟩
abbrev S256x1024x1024 : Shape := ⟨3, ![256, 1024, 1024]⟩

abbrev nBuf : Space → Nat
  | .hbm => 46
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .i1⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S2x128x1024, .f32⟩
  | .hbm, ⟨20, _⟩ => ⟨S_, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1x1024, .f32⟩
  | .hbm, ⟨26, _⟩ => ⟨S2x128x1024, .f32⟩
  | .hbm, ⟨27, _⟩ => ⟨S2x128x1024, .i1⟩
  | .hbm, ⟨28, _⟩ => ⟨S2x128x1024, .f32⟩
  | .hbm, ⟨29, _⟩ => ⟨S1x1x1024, .f32⟩
  | .hbm, ⟨30, _⟩ => ⟨S2x128x1024, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S1x1x1024, .f32⟩
  | .hbm, ⟨37, _⟩ => ⟨S2x128x1024, .f32⟩
  | .hbm, ⟨38, _⟩ => ⟨S2x128x1024, .f32⟩
  | .hbm, ⟨39, _⟩ => ⟨S256x1024, .f32⟩
  | .hbm, ⟨40, _⟩ => ⟨S256x1024, .f32⟩
  | .hbm, ⟨41, _⟩ => ⟨S256x1024x1, .f32⟩
  | .hbm, ⟨42, _⟩ => ⟨S1x1024x1024, .f32⟩
  | .hbm, ⟨43, _⟩ => ⟨S256x1024x1024, .f32⟩
  | .hbm, ⟨44, _⟩ => ⟨S256x1024x1024, .f32⟩
  | .hbm, ⟨45, _⟩ => ⟨S256x1024x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  reducesTo_S1024x1024_S1024_d1 : S1024x1024.ReducesTo [1] S1024
  h_S_ : 0 < S_.numel
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S2x128x1024_0_1_2 : S1x1x1024.BroadcastsInDim S2x128x1024 (![0, 1, 2] : Fin 3 → Fin S2x128x1024.rank)
  shapeCasts_S2x128x1024_S256x1024 : S2x128x1024.ShapeCasts S256x1024
  bcast_S256x1024_S256x1024x1_0_1 : S256x1024.BroadcastsInDim S256x1024x1 (![0, 1] : Fin 2 → Fin S256x1024x1.rank)
  bcast_S1024x1024_S1x1024x1024_1_2 : S1024x1024.BroadcastsInDim S1x1024x1024 (![1, 2] : Fin 2 → Fin S1x1024x1024.rank)
  bcast_S256x1024x1_S256x1024x1024_0_1_2 : S256x1024x1.BroadcastsInDim S256x1024x1024 (![0, 1, 2] : Fin 3 → Fin S256x1024x1024.rank)
  bcast_S1x1024x1024_S256x1024x1024_0_1_2 : S1x1024x1024.BroadcastsInDim S256x1024x1024 (![0, 1, 2] : Fin 3 → Fin S256x1024x1024.rank)
  dot_S2x128x1024_S1024x1024_S2x128x1024_2_1_01_0_n_n_wf : DotDims.WF S2x128x1024 S1024x1024 S2x128x1024 [2] [1] [0, 1] [0] [] []

variable [Facts₀]

def dot_S2x128x1024_S1024x1024_S2x128x1024_2_1_01_0_n_n : DotDims S2x128x1024 S1024x1024 S2x128x1024 where
  lhsContracting := [2]
  rhsContracting := [1]
  lhsNonContracting := [0, 1]
  rhsNonContracting := [0]
  lhsBatch := []
  rhsBatch := []
  wf := dot_S2x128x1024_S1024x1024_S2x128x1024_2_1_01_0_n_n_wf

class Facts : Prop extends Facts₀ where

variable [Facts]
-- ==== Proof.Spec.lean ====
/-
  The mathematics of the sparse Bayesian linear layer, stated once over the extended reals.

  For x of shape [2,128,1024] (read as 256 rows p = 128·b + s of length 1024), weights mu, rho, gate of shape [1024,1024]
  and a bias of length 1024:
    softplus r        = max(r, 0) + log(1 + e^{-|r|})                       (the stable form of log(1 + e^r))
    score(p, o)       = Σ_k x(p,k) · softplus(rho(o,k))
    threshold(o)      = (Σ_k gate(o,k)) / 1024
    mask(p, o)        = 1 if score(p,o) > threshold(o), else 0
    y(p, o)           = mask(p,o) · (Σ_k x(p,k) · mu(o,k)) + bias(o)
    masked(p, o, d)   = mask(p,o) · mu(o,d)
  and the three results are y (as [2,128,1024]), the scores (as [256,1024]) and the masked weights ([256,1024,1024]).

  One law is proved here: for FINITE score and threshold, the straight-through form (mask + (s − t)) − (s − t) is the mask.
  It needs finiteness: on the extended reals (+∞) − (+∞) is not 0.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Sbl

/-! ## Scalars -/

/-- The stable softplus: max(r, 0) + log(1 + e^{-|r − 0|}), with |a| = max(a, −a). -/
def sp (r : EReal) : EReal := max r 0 + Ideal.log1p (Ideal.exp (-(max (r - 0) (-(r - 0)))))

/-- A one-bit word widened to 32 bits and read signed is the bit read unsigned. -/
theorem bit_toInt (b : BitVec 1) : (b.setWidth 32).toInt = (b.toNat : Int) := by
  rcases BitVec.eq_zero_or_eq_one b with rfl | rfl <;> decide

/-- The 0/1 value of the comparison s > t, as a real. -/
def ind (s t : EReal) : EReal := ((((Ideal.cmp .ogt s t).setWidth 32).toInt : ℝ) : EReal)

/-- The same value read unsigned from the one-bit word. -/
theorem ind_eq_toNat (s t : EReal) : ind s t = (((Ideal.cmp .ogt s t).toNat : ℝ) : EReal) := by
  unfold ind; rw [bit_toInt]; norm_cast

/-- The real coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real coercion commutes with the maximum. -/
theorem coe_max (a b : ℝ) : max (a : EReal) (b : EReal) = ((max a b : ℝ) : EReal) :=
  (EReal.coe_strictMono.monotone.map_max).symm

/-- softplus of a real is a real: e^{-|r|} > 0, so the logarithm's argument is positive. -/
theorem sp_coe (r : ℝ) : ∃ s : ℝ, sp (r : EReal) = (s : EReal) := by
  refine ⟨max r 0 + Real.log (1 + Real.exp (-(max (r - 0) (-(r - 0))))), ?_⟩
  have h1 : (0 : ℝ) < 1 + Real.exp (-(max (r - 0) (-(r - 0)))) := by positivity
  unfold sp Ideal.log1p
  rw [← EReal.coe_zero, ← EReal.coe_sub, ← EReal.coe_neg, coe_max, coe_max, ← EReal.coe_neg, Ideal.exp_coe,
    ← EReal.coe_one, ← EReal.coe_add, Ideal.log_coe, if_neg (not_le.mpr h1), ← EReal.coe_add]

/-- The straight-through form of the mask is the mask, for finite score and threshold. -/
theorem ste (s t : ℝ) : ((((Ideal.cmp .ogt (s : EReal) (t : EReal)).toNat : ℝ) : EReal) + ((s : EReal) - (t : EReal))) - ((s : EReal) - (t : EReal))
    = ind (s : EReal) (t : EReal) := by
  rw [ind_eq_toNat, ← EReal.coe_sub, ← EReal.coe_add, ← EReal.coe_sub, add_sub_cancel_right]

/-- The word of 1024.0 is the real 1024. -/
theorem ofBits_1024 : Ideal.ofBits .f32 0x44800000#32 = ((1024 : ℝ) : EReal) := by
  simp [Ideal.ofBits, Ideal.ieee, -EReal.coe_mul]; norm_num

/-! ## The arrays -/

abbrev SX : Shape := ⟨3, ![2, 128, 1024]⟩
abbrev SW : Shape := ⟨2, ![1024, 1024]⟩
abbrev SB : Shape := ⟨1, ![1024]⟩
abbrev SF : Shape := ⟨2, ![256, 1024]⟩
abbrev SM : Shape := ⟨3, ![256, 1024, 1024]⟩

/-- Row p of the flattened x is (b, s) with p = 128·b + s. -/
abbrev hi (p : Fin 256) : Fin 2 := ⟨p.val / 128, by have := p.isLt; omega⟩
abbrev lo (p : Fin 256) : Fin 128 := ⟨p.val % 128, Nat.mod_lt _ (by decide)⟩

def score (X : SX.Idx → EReal) (Rho : SW.Idx → EReal) (b : Fin 2) (s : Fin 128) (o : Fin 1024) : EReal :=
  ∑ k : Fin 1024, X (ix3 b s k) * sp (Rho (ix2 o k))

def thr (G : SW.Idx → EReal) (o : Fin 1024) : EReal :=
  Ideal.div (0 + ∑ k : Fin 1024, G (ix2 o k)) (Ideal.ofBits .f32 0x44800000#32)

def inner (X : SX.Idx → EReal) (Mu : SW.Idx → EReal) (b : Fin 2) (s : Fin 128) (o : Fin 1024) : EReal :=
  ∑ k : Fin 1024, X (ix3 b s k) * Mu (ix2 o k)

def mask (X : SX.Idx → EReal) (Rho G : SW.Idx → EReal) (b : Fin 2) (s : Fin 128) (o : Fin 1024) : EReal :=
  ind (score X Rho b s o) (thr G o)

/-- y, as [2,128,1024]. -/
def yOut (X : SX.Idx → EReal) (Mu Rho G : SW.Idx → EReal) (B : SB.Idx → EReal) : SX.Idx → EReal := fun i =>
  mask X Rho G (i 0) (i 1) (i 2) * inner X Mu (i 0) (i 1) (i 2) + B (ix1 (i 2))

/-- y over the flattened rows, as [256,1024]. -/
def yFlat (X : SX.Idx → EReal) (Mu Rho G : SW.Idx → EReal) (B : SB.Idx → EReal) : SF.Idx → EReal := fun j =>
  mask X Rho G (hi (j 0)) (lo (j 0)) (j 1) * inner X Mu (hi (j 0)) (lo (j 0)) (j 1) + B (ix1 (j 1))

/-- The scores over the flattened rows, as [256,1024]. -/
def sigmaOut (X : SX.Idx → EReal) (Rho : SW.Idx → EReal) : SF.Idx → EReal := fun j =>
  score X Rho (hi (j 0)) (lo (j 0)) (j 1)

/-- The masked weights, as [256,1024,1024]. -/
def mwOut (X : SX.Idx → EReal) (Mu Rho G : SW.Idx → EReal) : SM.Idx → EReal := fun i =>
  mask X Rho G (hi (i 0)) (lo (i 0)) (i 1) * Mu (ix2 (i 1) (i 2))

/-! ## Finiteness of the score and of the threshold -/

theorem score_coe (X : SX.Idx → EReal) (Rho : SW.Idx → EReal) (hX : ∀ i, ∃ r : ℝ, X i = (r : EReal))
    (hR : ∀ i, ∃ r : ℝ, Rho i = (r : EReal)) (b : Fin 2) (s : Fin 128) (o : Fin 1024) :
    ∃ r : ℝ, score X Rho b s o = (r : EReal) := by
  choose x hx using hX
  choose ρ hρ using hR
  choose σ hσ using sp_coe
  refine ⟨∑ k : Fin 1024, x (ix3 b s k) * σ (ρ (ix2 o k)), ?_⟩
  unfold score
  rw [coe_sum]
  refine Finset.sum_congr rfl fun k _ => ?_
  rw [hx, hρ, hσ, EReal.coe_mul]

theorem thr_coe (G : SW.Idx → EReal) (hG : ∀ i, ∃ r : ℝ, G i = (r : EReal)) (o : Fin 1024) :
    ∃ r : ℝ, thr G o = (r : EReal) := by
  choose g hg using hG
  refine ⟨(∑ k : Fin 1024, g (ix2 o k)) * (1 / 1024), ?_⟩
  unfold thr
  rw [ofBits_1024, Ideal.div_coe (by norm_num : (1024 : ℝ) ≠ 0), zero_add, EReal.coe_mul, coe_sum]
  congr 1
  exact Finset.sum_congr rfl fun k _ => hg _

/-- The straight-through mask of the layer is its mask, for finite x, rho and gate. -/
theorem ste_mask (X : SX.Idx → EReal) (Rho G : SW.Idx → EReal) (hX : ∀ i, ∃ r : ℝ, X i = (r : EReal))
    (hR : ∀ i, ∃ r : ℝ, Rho i = (r : EReal)) (hG : ∀ i, ∃ r : ℝ, G i = (r : EReal)) (b : Fin 2) (s : Fin 128) (o : Fin 1024) :
    ((((Ideal.cmp .ogt (score X Rho b s o) (thr G o)).toNat : ℝ) : EReal) + (score X Rho b s o - thr G o)) - (score X Rho b s o - thr G o)
      = mask X Rho G b s o := by
  obtain ⟨u, hu⟩ := score_coe X Rho hX hR b s o
  obtain ⟨v, hv⟩ := thr_coe G hG o
  unfold mask
  rw [hu, hv]
  exact ste u v

end Cert.Sbl

end
-- ==== Proof.Finite.lean ====
import proofs.«167400_j63608465653841_2_alg».proof.Pre_finite_inputs
import proofs.«167400_j63608465653841_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

/-!
  The precondition says: for each of the five float arguments, every entry `x` satisfies `|x| < +∞`
  (as an `and`-reduction of the elementwise comparisons that came out `1`). Over the extended reals
  `|x| = max x (-x)`, and `max x (-x) < ⊤` excludes both `⊥` and `⊤`, so every entry is a real number.
-/

noncomputable section

namespace Cert.SblFinite

open Idealize.ShloMosaic
open Cert.Pre_finite_inputs

/-- The f32 pattern `0x7F800000` (sign 0, exponent all ones, fraction 0) denotes `+∞`. -/
theorem ofBits_inf : Ideal.ofBits .f32 0x7F800000#32 = (⊤ : EReal) := by
  simp [Ideal.ofBits, Ideal.ieee]

/-- An extended real whose absolute value `max x (-x)` compares strictly below `+∞` is a real number:
    `⊤` gives `max ⊤ ⊥ = ⊤` and `⊥` gives `max ⊥ ⊤ = ⊤`, neither of which is below `⊤`. -/
theorem real_of_abs_lt_top (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- The rank-0 shape has exactly one index. -/
instance : Subsingleton S_.Idx := ⟨fun a b => funext fun d => d.elim0⟩

/-- The conjunction of two `i1` vectors is `1` at an index exactly when both are. -/
theorem andi_apply_eq_one {s : Shape} (x y : IVec s 1) (i : s.Idx) :
    andi x y i = 1#1 ↔ x i = 1#1 ∧ y i = 1#1 := IntOp.andi_eq_one

/-- One `all(|a| < +∞)`: if the `and`-reduction over every axis of the comparison `|a| < +∞` is `1`,
    every entry of `a` is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
        (cmpf .olt (Host.absf a) (broadcastInDim s ![] hb (constant S_ .f32 0x7F800000#32)))
        (constantI S_ 1 1#1) hr hu ValueIdx.ix0 = 1#1) (i : s.Idx) : ∃ r : ℝ, a i = (r : EReal) :=
  real_of_abs_lt_top (a i) (Host.reduce_andi_all _ _ hr hu _ h i)

/-- The precondition gives: every entry of every float argument is a real number. -/
theorem finite_of_pre (a0 : FVec Ideal S2x128x1024 .f32) (a1 a2 a3 : FVec Ideal S1024x1024 .f32)
    (a4 : FVec Ideal S1024 .f32)
    (h : Cert.Pre_finite_inputs.fn (F := Ideal) a0 a1 a2 a3 a4 = fun _ => 1#1) :
    (∀ i, ∃ r : ℝ, a0 i = (r : EReal)) ∧ (∀ i, ∃ r : ℝ, a2 i = (r : EReal)) ∧
      (∀ i, ∃ r : ℝ, a3 i = (r : EReal)) ∧ (∀ i, ∃ r : ℝ, a1 i = (r : EReal)) ∧
      (∀ i, ∃ r : ℝ, a4 i = (r : EReal)) := by
  have h0 := congrFun h ValueIdx.ix0
  dsimp only [Cert.Pre_finite_inputs.fn, Cert.Pre_finite_inputs.fn_part1] at h0
  rw [andi_apply_eq_one, andi_apply_eq_one, andi_apply_eq_one, andi_apply_eq_one] at h0
  obtain ⟨⟨⟨⟨e0, e1⟩, e2⟩, e3⟩, e4⟩ := h0
  exact ⟨real_of_all a0 _ _ _ e0, real_of_all a2 _ _ _ e2, real_of_all a3 _ _ _ e3,
    real_of_all a1 _ _ _ e1, real_of_all a4 _ _ _ e4⟩

end Cert.SblFinite

end
-- ==== Proof.Payload.lean ====
/-
  The kernel body's arithmetic, read one element at a time at the ideal instance.

  At a grid point the body holds a [16,1024] block of the flattened x, [128,1024] blocks of rho and mu, and length-128
  blocks of the thresholds and the bias. Its three stores are functions of these alone; here each is read at an index:
  the scores' block (a product with the softplus of the rho block, contracted over the 1024 columns), the 0/1 mask,
  y = mask · (x · muᵀ) + bias, and the masked weights mask(p,q) · mu(q,d). Changes of float format are the identity here.
-/
import proofs.«167400_j63608465653841_2_alg».proof.Proof.Gen.KernelIdeal.Skeleton
import proofs.«167400_j63608465653841_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.Sbl.Pay

open Cert.KernelIdeal Cert.KernelIdeal.Gen

theorem mm_lhs0 (j : S16x128.Idx) (k : dot_S16x1024_S128x1024_S16x128_1_1_0_0_n_n.contr.Idx) :
    (dot_S16x1024_S128x1024_S16x128_1_1_0_0_n_n.lhsIdx j k 0).val = (j 0).val := by
  unfold DotDims.lhsIdx
  rw [dif_neg (show ¬(0 : Fin S16x1024.rank) ∈ dot_S16x1024_S128x1024_S16x128_1_1_0_0_n_n.lhsBatch by decide),
    dif_pos (show (0 : Fin S16x1024.rank) ∈ dot_S16x1024_S128x1024_S16x128_1_1_0_0_n_n.lhsNonContracting by decide)]
  rfl

theorem mm_rhs0 (j : S16x128.Idx) (k : dot_S16x1024_S128x1024_S16x128_1_1_0_0_n_n.contr.Idx) :
    (dot_S16x1024_S128x1024_S16x128_1_1_0_0_n_n.rhsIdx j k 0).val = (j 1).val := by
  unfold DotDims.rhsIdx
  rw [dif_neg (show ¬(0 : Fin S128x1024.rank) ∈ dot_S16x1024_S128x1024_S16x128_1_1_0_0_n_n.rhsBatch by decide),
    dif_pos (show (0 : Fin S128x1024.rank) ∈ dot_S16x1024_S128x1024_S16x128_1_1_0_0_n_n.rhsNonContracting by decide)]
  rfl

/-- The product of a [16,1024] block by the transpose of a [128,1024] block, into zero, at (p, q):
    the sum over k of row p of the one times row q of the other. -/
theorem mm_apply {φ₁ φ₂ : FTy} (L : FVec Ideal S16x1024 φ₁) (R : FVec Ideal S128x1024 φ₂) (p : Fin 16) (q : Fin 128) :
    matmul dot_S16x1024_S128x1024_S16x128_1_1_0_0_n_n none L R (constant (F := Ideal) S16x128 .f32 0x00000000#32) (ix2 p q)
      = ∑ k : Fin 1024, L (ix2 p k) * R (ix2 q k) := by
  simp only [matmul]
  rw [Ideal.matmul_constant_zero_apply,
    ← Equiv.sum_comp (contrEquiv1 dot_S16x1024_S128x1024_S16x128_1_1_0_0_n_n 1024 rfl rfl).symm]
  refine Finset.sum_congr rfl fun k _ => ?_
  have hk := contrEquiv1_symm_val dot_S16x1024_S128x1024_S16x128_1_1_0_0_n_n 1024 rfl rfl k
  have el : dot_S16x1024_S128x1024_S16x128_1_1_0_0_n_n.lhsIdx (ix2 p q)
      ((contrEquiv1 dot_S16x1024_S128x1024_S16x128_1_1_0_0_n_n 1024 rfl rfl).symm k) = ix2 p k := funext fun a => Fin.ext (by
    match a with
    | ⟨0, _⟩ => exact mm_lhs0 _ _
    | ⟨1, _⟩ => exact (dot_S16x1024_S128x1024_S16x128_1_1_0_0_n_n.lhsIdx_val_of_single rfl _ _).trans hk)
  have er : dot_S16x1024_S128x1024_S16x128_1_1_0_0_n_n.rhsIdx (ix2 p q)
      ((contrEquiv1 dot_S16x1024_S128x1024_S16x128_1_1_0_0_n_n 1024 rfl rfl).symm k) = ix2 q k := funext fun a => Fin.ext (by
    match a with
    | ⟨0, _⟩ => exact mm_rhs0 _ _
    | ⟨1, _⟩ => exact (dot_S16x1024_S128x1024_S16x128_1_1_0_0_n_n.rhsIdx_val_of_single rfl _ _).trans hk)
  rw [el, er]

/-- The body's softplus of a [128,1024] block, at an index: the NaN test `a ≠ a` never fires on the extended
    reals, so the stable branch max(r,0) + log(1 + e^{0 − |r − 0|}) is taken, and 0 − a = −a. -/
theorem softplus_apply (x1 : FVec Ideal S128x1024 .f32) (i : S128x1024.Idx) :
    (select (cmpf .one (subf x1 (broadcast S128x1024 (FloatOps.ofBits .f32 0x00000000#32)))
        (subf x1 (broadcast S128x1024 (FloatOps.ofBits .f32 0x00000000#32))))
      (addf x1 (broadcast S128x1024 (FloatOps.ofBits .f32 0x00000000#32)))
      (addf (maximumf x1 (broadcast S128x1024 (FloatOps.ofBits .f32 0x00000000#32)))
        (log1p (exp (subf (broadcast S128x1024 (FloatOps.ofBits .f32 0x00000000#32))
          (absf (subf x1 (broadcast S128x1024 (FloatOps.ofBits .f32 0x00000000#32)))))))) : FVec Ideal S128x1024 .f32) i
      = Cert.Sbl.sp (x1 i) := by
  have hc : ∀ a : EReal, Ideal.cmp .one a a = 0#1 := fun a => by simp [Ideal.cmp]
  rw [select_apply, cmpf_apply]
  show Scalar.select (Ideal.cmp .one _ _) _ _ = _
  rw [hc, select_zero]
  show max (x1 i) (Ideal.ofBits .f32 0x00000000#32)
    + Ideal.log1p (Ideal.exp (Ideal.ofBits .f32 0x00000000#32 - max (x1 i - Ideal.ofBits .f32 0x00000000#32) (-(x1 i - Ideal.ofBits .f32 0x00000000#32))))
    = Cert.Sbl.sp (x1 i)
  rw [Ideal.ofBits_zero_f32, zero_sub]
  rfl

/-- The scores' block at (p, q): row p of the x block against the softplus of row q of the rho block. -/
theorem pay3_apply (x0 : Vec Ideal S16x1024 .f32) (x1 : Vec Ideal S128x1024 .f32) (p : Fin 16) (q : Fin 128) :
    k0_pay3 x0 x1 (ix2 p q) = ∑ k : Fin 1024, x0 (ix2 p k) * Cert.Sbl.sp (x1 (ix2 q k)) := by
  unfold k0_pay3 k0_pay2
  rw [mm_apply]
  refine Finset.sum_congr rfl fun k _ => ?_
  congr 1
  · show shapeCast S16x1024 x0 shapeCasts_S16x1024_S16x1024 (ix2 p k) = x0 (ix2 p k)
    rw [shapeCast_self]
  · exact softplus_apply x1 (ix2 q k)

/-- A length-128 block, cast to one row and repeated over 16 rows, at (p, q) is its entry q. -/
theorem rowvec_apply (x3 : Vec Ideal S128 .f32) (p : Fin 16) (q : Fin 128) :
    broadcastTo S16x128 (shapeCast S1x128 x3 shapeCasts_S128_S1x128) broadcasts_S1x128_S16x128 (ix2 p q) = x3 (ix1 q) := by
  rw [broadcastTo_1b_ab_apply, shapeCast_a_1a_apply]

/-- The mask's block at (p, q): 1 where the score exceeds the threshold's entry q, else 0. -/
theorem pay4_apply (x0 : Vec Ideal S16x1024 .f32) (x1 : Vec Ideal S128x1024 .f32) (x3 : Vec Ideal S128 .f32) (p : Fin 16) (q : Fin 128) :
    k0_pay4 x0 x1 x3 (ix2 p q)
      = Cert.Sbl.ind (∑ k : Fin 1024, x0 (ix2 p k) * Cert.Sbl.sp (x1 (ix2 q k))) (x3 (ix1 q)) := by
  unfold k0_pay4
  rw [sitofp_apply, extui_apply, cmpf_apply, pay3_apply, shapeCast_self, rowvec_apply]
  rfl

/-- The y block at (p, q): mask · (row p of x against row q of mu) + bias entry q. -/
theorem pay5_apply (x0 : Vec Ideal S16x1024 .f32) (x1 x2 : Vec Ideal S128x1024 .f32) (x3 x4 : Vec Ideal S128 .f32) (p : Fin 16) (q : Fin 128) :
    k0_pay5 x0 x1 x2 x3 x4 (ix2 p q)
      = Cert.Sbl.ind (∑ k : Fin 1024, x0 (ix2 p k) * Cert.Sbl.sp (x1 (ix2 q k))) (x3 (ix1 q))
          * (∑ k : Fin 1024, x0 (ix2 p k) * x2 (ix2 q k)) + x4 (ix1 q) := by
  unfold k0_pay5 k0_pay2
  rw [addf_apply, mulf_apply, pay4_apply, mm_apply, rowvec_apply]
  congr 2
  refine Finset.sum_congr rfl fun k _ => ?_
  congr 1
  show shapeCast S16x1024 x0 shapeCasts_S16x1024_S16x1024 (ix2 p k) = x0 (ix2 p k)
  rw [shapeCast_self]

/-- The masked-weights block at (p, q, d): the mask at (p, q) times the mu block's entry (q, d). -/
theorem pay1_apply (x0 : Vec Ideal S16x1024 .f32) (x1 x2 : Vec Ideal S128x1024 .f32) (x3 : Vec Ideal S128 .f32)
    (p : Fin 16) (q : Fin 128) (d : Fin 1024) :
    k0_pay1 (k0_pay6 x2) (k0_pay7 x0 x1 x3) (ix3 p q d)
      = Cert.Sbl.ind (∑ k : Fin 1024, x0 (ix2 p k) * Cert.Sbl.sp (x1 (ix2 q k))) (x3 (ix1 q)) * x2 (ix2 q d) := by
  unfold k0_pay1 k0_pay6 k0_pay7
  rw [mulf_apply]
  congr 1
  · rw [broadcastTo_apply _ broadcasts_S16x128x1_S16x128x1024 (ix3 p q d) (ix3 p q (0 : Fin 1)) (fun a => by
        match a with
        | ⟨0, _⟩ => show p.val = if (16 : Nat) = 1 then 0 else p.val; rw [if_neg (by decide)]
        | ⟨1, _⟩ => show q.val = if (128 : Nat) = 1 then 0 else q.val; rw [if_neg (by decide)]
        | ⟨2, _⟩ => show 0 = if (1 : Nat) = 1 then 0 else d.val; rw [if_pos rfl]),
      shapeCast_apply _ shapeCasts_S16x128_S16x128x1 (ix3 p q (0 : Fin 1)) (ix2 p q) (by
        rw [Shape.rowMajor_val_two, Shape.rowMajor_val_three]
        show p.val * 128 + q.val = (p.val * 128 + q.val) * 1 + 0
        omega),
      pay4_apply]
  · rw [broadcastTo_apply _ broadcasts_S1x128x1024_S16x128x1024 (ix3 p q d) (ix3 (0 : Fin 1) q d) (fun a => by
        match a with
        | ⟨0, _⟩ => show 0 = if (1 : Nat) = 1 then 0 else p.val; rw [if_pos rfl]
        | ⟨1, _⟩ => show q.val = if (128 : Nat) = 1 then 0 else q.val; rw [if_neg (by decide)]
        | ⟨2, _⟩ => show d.val = if (1024 : Nat) = 1 then 0 else d.val; rw [if_neg (by decide)]),
      shapeCast_ab_1ab_apply]

end Cert.Sbl.Pay

end
-- ==== Proof.Blocks.lean ====
/-
  From the kernel's blocks to its three result arrays, at the ideal instance.

  The grid has 8 × 16 points; at a point the body reads a [16,1024] row block of the flattened x, the [128,1024] row
  blocks of rho and mu and the length-128 blocks of the thresholds and the bias at the point's column block, and writes a
  [16,128] block of y, a [16,128] block of the scores and a [16,128,1024] block of the masked weights. Here: the arrays
  the host lines write before the region (the flattened x is a row-major reshape, row p = (p / 128, p mod 128); the
  threshold of column o is (Σ_k gate(o,k)) / 1024); every input block as entries of the arguments; what each point
  writes back as its block of ONE whole-array function per output; the blocks tile the arrays (row r is in row block
  r / 16, column o in column block o / 128), so each array ends holding its function; and the host's reshape of y back
  to [2,128,1024] after the region.
-/
import proofs.«167400_j63608465653841_2_alg».proof.Proof.Gen.KernelIdeal.Frame
import proofs.«167400_j63608465653841_2_alg».proof.Proof.Payload
import proofs.«167400_j63608465653841_2_alg».proof.Proof.Spec
import Idealize.ShloMosaic.Lib.Pipeline.Value
import Idealize.ShloMosaic.Lib.StableHlo.Run
import Idealize.ShloMosaic.Lib.ValueIdx
import Idealize.ShloMosaic.Lib.Tactic
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Sbl.Blocks

open Cert.KernelIdeal Cert.KernelIdeal.Gen Cert.Sbl

variable (m : (ℓ : Loc nD τ sig) → Buf (Elt Ideal) ℓ) (ρ : Dev nD → PrngReg)

/-! ## The arrays the host lines write before the region -/

/-- The flattened x the region finds is the host's reshape of the argument. -/
theorem V_flatx (c : Dev nD) : (V m c main_v3 : S256x1024.Idx → EReal)
    = shapeCast S256x1024 (m ((c : Thread nD τ).loc main_arg0)) shapeCasts_S2x128x1024_S256x1024 := by
  show StableHlo.after hostOps0 (fun b => m (c, b)) (Proc.devRef .tc main_v3) = _
  after_results
  rfl

/-- The thresholds the region finds are the host's row sums of gate divided by the constant 1024. -/
theorem V_thr (c : Dev nD) : (V m c main_v2 : S1024.Idx → EReal)
    = Host.divf (Host.reduceAdd (m ((c : Thread nD τ).loc main_arg3)) (constant (F := Ideal) S_ .f32 0x00000000#32) reducesTo_S1024x1024_S1024_d1 h_S_)
        (broadcastInDim S1024 ![] bcast_S_S1024 (constant (F := Ideal) S_ .f32 0x44800000#32)) := by
  show StableHlo.after hostOps0 (fun b => m (c, b)) (Proc.devRef .tc main_v2) = _
  after_results

/-- Row p of the flattened x is row (p / 128, p mod 128) of the argument. -/
theorem flatx_apply (c : Dev nD) (i : S256x1024.Idx) (P : Fin 256) (k : Fin 1024) (hP : P.val = (i 0).val) (hk : k.val = (i 1).val) :
    (V m c main_v3 : S256x1024.Idx → EReal) i = (m ((c : Thread nD τ).loc main_arg0) : S2x128x1024.Idx → EReal) (ix3 (hi P) (lo P) k) := by
  rw [V_flatx]
  refine shapeCast_apply _ _ _ _ ?_
  show (S2x128x1024.rowMajor (ix3 (hi P) (lo P) k)).val = (S256x1024.rowMajor i).val
  rw [Shape.rowMajor_val_three, Shape.rowMajor_val_two]
  show (P.val / 128 * 128 + P.val % 128) * 1024 + k.val = (i 0).val * 1024 + (i 1).val
  rw [hP, hk]
  omega

/-- The threshold at o is (0 + Σ_k gate(o,k)) / 1024. -/
theorem thr_apply (c : Dev nD) (i : S1024.Idx) (o : Fin 1024) (ho : o.val = (i 0).val) :
    (V m c main_v2 : S1024.Idx → EReal) i = thr (m ((c : Thread nD τ).loc main_arg3)) o := by
  rw [V_thr]
  show Ideal.div (Host.reduceAdd (m ((c : Thread nD τ).loc main_arg3)) (constant (F := Ideal) S_ .f32 0x00000000#32) reducesTo_S1024x1024_S1024_d1 h_S_ i)
      (broadcastInDim S1024 ![] bcast_S_S1024 (constant (F := Ideal) S_ .f32 0x44800000#32) i) = _
  simp only [Host.reduceAdd, Ideal.hostReduceAdd_def]
  rw [Ideal.hostReduceAdd_single reducesTo_S1024x1024_S1024_d1 (by decide)]
  unfold thr
  congr 1
  · congr 1
    · exact Ideal.ofBits_zero_f32
    · refine Finset.sum_congr rfl fun k _ => congrArg _ (funext fun a => Fin.ext ?_)
      match a with
      | ⟨0, _⟩ => exact ho.symm
      | ⟨1, _⟩ => rfl

/-! ## The whole-array functions read at an index -/

theorem sigmaOut_apply (X : SX.Idx → EReal) (Rho : SW.Idx → EReal) (i : SF.Idx) :
    sigmaOut X Rho i = ∑ k : Fin 1024, X (ix3 (hi (i 0)) (lo (i 0)) k) * sp (Rho (ix2 (i 1) k)) := rfl

theorem yFlat_apply (X : SX.Idx → EReal) (Mu Rho G : SW.Idx → EReal) (B : SB.Idx → EReal) (i : SF.Idx) :
    yFlat X Mu Rho G B i
      = ind (∑ k : Fin 1024, X (ix3 (hi (i 0)) (lo (i 0)) k) * sp (Rho (ix2 (i 1) k))) (thr G (i 1))
          * (∑ k : Fin 1024, X (ix3 (hi (i 0)) (lo (i 0)) k) * Mu (ix2 (i 1) k)) + B (ix1 (i 1)) := rfl

theorem mwOut_apply (X : SX.Idx → EReal) (Mu Rho G : SW.Idx → EReal) (i : SM.Idx) :
    mwOut X Mu Rho G i
      = ind (∑ k : Fin 1024, X (ix3 (hi (i 0)) (lo (i 0)) k) * sp (Rho (ix2 (i 1) k))) (thr G (i 1)) * Mu (ix2 (i 1) (i 2)) := rfl

/-! ## The grid's index maps, decided once over its 128 points -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- At every point: the x block's row block is the outputs' row block; the rho, mu, threshold and bias blocks sit at the
    outputs' column block; the three outputs move together; and the block indices stay inside 16 × 8. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 1) = win0_5.index t (1 : Fin 2)
    ∧ win0_4.index t (0 : Fin 1) = win0_5.index t (1 : Fin 2)
    ∧ win0_6.index t (0 : Fin 2) = win0_5.index t (0 : Fin 2) ∧ win0_6.index t (1 : Fin 2) = win0_5.index t (1 : Fin 2)
    ∧ win0_7.index t (0 : Fin 3) = win0_5.index t (0 : Fin 2) ∧ win0_7.index t (1 : Fin 3) = win0_5.index t (1 : Fin 2)
    ∧ win0_7.index t (2 : Fin 3) = 0
    ∧ win0_5.index t (0 : Fin 2) ≤ 15 ∧ win0_5.index t (1 : Fin 2) ≤ 7 :=
  (by decide +kernel : ∀ t : Fin grid0.N, _)

/-- Every (row block, column block) pair is some point's. -/
theorem idx_onto : ∀ (q0 : Fin 16) (q1 : Fin 8), ∃ t : Fin cfg0.N, win0_5.index t = ![q0.val, q1.val] :=
  (by decide +kernel : ∀ (q0 : Fin 16) (q1 : Fin 8), ∃ t : Fin grid0.N, win0_5.index t = ![q0.val, q1.val])

/-! ## The input blocks at a point, as entries of the arguments -/

/-- Row p of the x block at a point is row 16·(row block) + p of the flattened x. -/
theorem xblk_apply (c : Dev nD) (t : Fin cfg0.N) (p : Fin 16) (k : Fin 1024) (P : Fin 256)
    (hP : P.val = win0_5.index t (0 : Fin 2) * 16 + p.val) :
    (iblk m c 0 t : Vec Ideal S16x1024 .f32) (ix2 p k)
      = (m ((c : Thread nD τ).loc main_arg0) : S2x128x1024.Idx → EReal) (ix3 (hi P) (lo P) k) := by
  obtain ⟨e0, e0', -⟩ := idx_facts t
  unfold iblk
  rw [View.read_apply]
  show (V m c main_v3 : S256x1024.Idx → EReal) (((cfg0.win 0).blk t).view.emb (ix2 p k)) = _
  refine flatx_apply m c _ P k ?_ ?_
  · show P.val = win0_0.index t (0 : Fin 2) * 16 + 1 * p.val
    omega
  · show k.val = win0_0.index t (1 : Fin 2) * 1024 + 1 * k.val
    omega

/-- Row q of the rho block at a point is row 128·(column block) + q of rho. -/
theorem rhoblk_apply (c : Dev nD) (t : Fin cfg0.N) (q : Fin 128) (k : Fin 1024) (O : Fin 1024)
    (hO : O.val = win0_5.index t (1 : Fin 2) * 128 + q.val) :
    (iblk m c 1 t : Vec Ideal S128x1024 .f32) (ix2 q k)
      = (m ((c : Thread nD τ).loc main_arg2) : S1024x1024.Idx → EReal) (ix2 O k) := by
  obtain ⟨-, -, e1, e1', -⟩ := idx_facts t
  unfold iblk
  rw [View.read_apply]
  show (V m c main_arg2 : S1024x1024.Idx → EReal) (((cfg0.win 1).blk t).view.emb (ix2 q k)) = _
  rw [V_main_arg2]
  refine congrArg _ (funext fun a => Fin.ext ?_)
  match a with
  | ⟨0, _⟩ => show win0_1.index t (0 : Fin 2) * 128 + 1 * q.val = O.val; omega
  | ⟨1, _⟩ => show win0_1.index t (1 : Fin 2) * 1024 + 1 * k.val = k.val; omega

/-- Row q of the mu block at a point is row 128·(column block) + q of mu. -/
theorem mublk_apply (c : Dev nD) (t : Fin cfg0.N) (q : Fin 128) (k : Fin 1024) (O : Fin 1024)
    (hO : O.val = win0_5.index t (1 : Fin 2) * 128 + q.val) :
    (iblk m c 2 t : Vec Ideal S128x1024 .f32) (ix2 q k)
      = (m ((c : Thread nD τ).loc main_arg1) : S1024x1024.Idx → EReal) (ix2 O k) := by
  obtain ⟨-, -, -, -, e2, e2', -⟩ := idx_facts t
  unfold iblk
  rw [View.read_apply]
  show (V m c main_arg1 : S1024x1024.Idx → EReal) (((cfg0.win 2).blk t).view.emb (ix2 q k)) = _
  rw [V_main_arg1]
  refine congrArg _ (funext fun a => Fin.ext ?_)
  match a with
  | ⟨0, _⟩ => show win0_2.index t (0 : Fin 2) * 128 + 1 * q.val = O.val; omega
  | ⟨1, _⟩ => show win0_2.index t (1 : Fin 2) * 1024 + 1 * k.val = k.val; omega

/-- Entry q of the threshold block at a point is the threshold of column 128·(column block) + q. -/
theorem thrblk_apply (c : Dev nD) (t : Fin cfg0.N) (q : Fin 128) (O : Fin 1024)
    (hO : O.val = win0_5.index t (1 : Fin 2) * 128 + q.val) :
    (iblk m c 3 t : Vec Ideal S128 .f32) (ix1 q) = thr (m ((c : Thread nD τ).loc main_arg3)) O := by
  obtain ⟨-, -, -, -, -, -, e3, -⟩ := idx_facts t
  unfold iblk
  rw [View.read_apply]
  show (V m c main_v2 : S1024.Idx → EReal) (((cfg0.win 3).blk t).view.emb (ix1 q)) = _
  refine thr_apply m c _ O ?_
  show O.val = win0_3.index t (0 : Fin 1) * 128 + 1 * q.val
  omega

/-- Entry q of the bias block at a point is the bias of column 128·(column block) + q. -/
theorem biasblk_apply (c : Dev nD) (t : Fin cfg0.N) (q : Fin 128) (O : Fin 1024)
    (hO : O.val = win0_5.index t (1 : Fin 2) * 128 + q.val) :
    (iblk m c 4 t : Vec Ideal S128 .f32) (ix1 q) = (m ((c : Thread nD τ).loc main_arg4) : S1024.Idx → EReal) (ix1 O) := by
  obtain ⟨-, -, -, -, -, -, -, e4, -⟩ := idx_facts t
  unfold iblk
  rw [View.read_apply]
  show (V m c main_arg4 : S1024.Idx → EReal) (((cfg0.win 4).blk t).view.emb (ix1 q)) = _
  rw [V_main_arg4]
  refine congrArg _ (funext fun a => Fin.ext ?_)
  match a with
  | ⟨0, _⟩ => show win0_4.index t (0 : Fin 1) * 128 + 1 * q.val = O.val; omega

/-! ## What a point writes back, window by window -/

/-- The scores: the block a point writes back is its block of the whole-array function. -/
theorem flushed6_eq (c : Dev nD) (t : Fin cfg0.N) :
    (dats m 0 c).flushed 6 t = ((cfg0.win 6).blk t).view.read (Elt Ideal)
      (sigmaOut (m ((c : Thread nD τ).loc main_arg0)) (m ((c : Thread nD τ).loc main_arg2))) := by
  show (cfg0.win 6).cut (grid0.coords t) ((dats m 0 c).after 6 t) = _
  rw [after0_6]
  unfold out0_6
  rw [View.canon_unit_zero hz2]
  simp only [View.ld_unit_zero (S := S16x1024) hz2, View.ld_unit_zero (S := S128x1024) hz2]
  refine funext fun (j : S16x128.Idx) => ?_
  obtain ⟨p, q, rfl⟩ : ∃ (p : Fin 16) (q : Fin 128), j = ix2 p q := ⟨j 0, j 1, eq_ix2 j⟩
  obtain ⟨-, -, -, -, -, -, -, -, e6, e6', -⟩ := idx_facts t
  refine (Pay.pay3_apply (iblk m c 0 t) (iblk m c 1 t) p q).trans ?_
  show _ = sigmaOut (m ((c : Thread nD τ).loc main_arg0)) (m ((c : Thread nD τ).loc main_arg2)) (((cfg0.win 6).blk t).view.emb (ix2 p q))
  have hP : ((((cfg0.win 6).blk t).view.emb (ix2 p q)) 0).val = win0_5.index t (0 : Fin 2) * 16 + p.val := by
    show win0_6.index t (0 : Fin 2) * 16 + 1 * p.val = _
    omega
  have hO : ((((cfg0.win 6).blk t).view.emb (ix2 p q)) 1).val = win0_5.index t (1 : Fin 2) * 128 + q.val := by
    show win0_6.index t (1 : Fin 2) * 128 + 1 * q.val = _
    omega
  rw [sigmaOut_apply]
  refine Finset.sum_congr rfl fun k _ => ?_
  rw [xblk_apply m c t p k _ hP, rhoblk_apply m c t q k _ hO]

/-- y: the block a point writes back is its block of the whole-array function over the flattened rows. -/
theorem flushed5_eq (c : Dev nD) (t : Fin cfg0.N) :
    (dats m 0 c).flushed 5 t = ((cfg0.win 5).blk t).view.read (Elt Ideal)
      (yFlat (m ((c : Thread nD τ).loc main_arg0)) (m ((c : Thread nD τ).loc main_arg1)) (m ((c : Thread nD τ).loc main_arg2))
        (m ((c : Thread nD τ).loc main_arg3)) (m ((c : Thread nD τ).loc main_arg4))) := by
  show (cfg0.win 5).cut (grid0.coords t) ((dats m 0 c).after 5 t) = _
  rw [after0_5]
  unfold out0_5
  rw [View.canon_unit_zero hz2]
  simp only [View.ld_unit_zero (S := S16x1024) hz2, View.ld_unit_zero (S := S128x1024) hz2, View.ld_unit_zero (S := S128) hz1]
  refine funext fun (j : S16x128.Idx) => ?_
  obtain ⟨p, q, rfl⟩ : ∃ (p : Fin 16) (q : Fin 128), j = ix2 p q := ⟨j 0, j 1, eq_ix2 j⟩
  refine (Pay.pay5_apply (iblk m c 0 t) (iblk m c 1 t) (iblk m c 2 t) (iblk m c 3 t) (iblk m c 4 t) p q).trans ?_
  show _ = yFlat (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 5).blk t).view.emb (ix2 p q))
  have hP : ((((cfg0.win 5).blk t).view.emb (ix2 p q)) 0).val = win0_5.index t (0 : Fin 2) * 16 + p.val := by
    show win0_5.index t (0 : Fin 2) * 16 + 1 * p.val = _
    omega
  have hO : ((((cfg0.win 5).blk t).view.emb (ix2 p q)) 1).val = win0_5.index t (1 : Fin 2) * 128 + q.val := by
    show win0_5.index t (1 : Fin 2) * 128 + 1 * q.val = _
    omega
  rw [yFlat_apply, thrblk_apply m c t q _ hO, biasblk_apply m c t q _ hO]
  refine congrArg₂ (fun a b : EReal => ind a _ * b + _) (Finset.sum_congr rfl fun k _ => ?_) (Finset.sum_congr rfl fun k _ => ?_)
  · rw [xblk_apply m c t p k _ hP, rhoblk_apply m c t q k _ hO]
  · rw [xblk_apply m c t p k _ hP, mublk_apply m c t q k _ hO]

/-- The masked weights: the block a point writes back is its block of the whole-array function. -/
theorem flushed7_eq (c : Dev nD) (t : Fin cfg0.N) :
    (dats m 0 c).flushed 7 t = ((cfg0.win 7).blk t).view.read (Elt Ideal)
      (mwOut (m ((c : Thread nD τ).loc main_arg0)) (m ((c : Thread nD τ).loc main_arg1)) (m ((c : Thread nD τ).loc main_arg2))
        (m ((c : Thread nD τ).loc main_arg3))) := by
  show (cfg0.win 7).cut (grid0.coords t) ((dats m 0 c).after 7 t) = _
  rw [after0_7]
  unfold out0_7
  rw [View.canon_unit_zero hz3]
  simp only [View.ld_unit_zero (S := S16x1024) hz2, View.ld_unit_zero (S := S128x1024) hz2, View.ld_unit_zero (S := S128) hz1]
  refine funext fun (j : S16x128x1024.Idx) => ?_
  obtain ⟨p, q, d, rfl⟩ : ∃ (p : Fin 16) (q : Fin 128) (d : Fin 1024), j = ix3 p q d := ⟨j 0, j 1, j 2, eq_ix3 j⟩
  obtain ⟨-, -, -, -, -, -, -, -, -, -, e7, e7', e7'', -⟩ := idx_facts t
  refine (Pay.pay1_apply (iblk m c 0 t) (iblk m c 1 t) (iblk m c 2 t) (iblk m c 3 t) p q d).trans ?_
  show _ = mwOut (m ((c : Thread nD τ).loc main_arg0)) (m ((c : Thread nD τ).loc main_arg1)) (m ((c : Thread nD τ).loc main_arg2))
      (m ((c : Thread nD τ).loc main_arg3)) (((cfg0.win 7).blk t).view.emb (ix3 p q d))
  have hP : ((((cfg0.win 7).blk t).view.emb (ix3 p q d)) 0).val = win0_5.index t (0 : Fin 2) * 16 + p.val := by
    show win0_7.index t (0 : Fin 3) * 16 + 1 * p.val = _
    omega
  have hO : ((((cfg0.win 7).blk t).view.emb (ix3 p q d)) 1).val = win0_5.index t (1 : Fin 2) * 128 + q.val := by
    show win0_7.index t (1 : Fin 3) * 128 + 1 * q.val = _
    omega
  have hD : (((cfg0.win 7).blk t).view.emb (ix3 p q d)) 2 = d := Fin.ext (by
    show win0_7.index t (2 : Fin 3) * 1024 + 1 * d.val = d.val
    omega)
  rw [mwOut_apply, thrblk_apply m c t q _ hO, mublk_apply m c t q d _ hO, hD]
  refine congrArg (fun a : EReal => ind a _ * _) (Finset.sum_congr rfl fun k _ => ?_)
  rw [xblk_apply m c t p k _ hP, rhoblk_apply m c t q k _ hO]

/-! ## The blocks tile the arrays -/

theorem mem_blk5 (t : Fin cfg0.N) (i : S256x1024.Idx) :
    i ∈ ((cfg0.win 5).blk t).view.set ↔ ∀ a : Fin 2, win0_5.index t a * S16x128.size a ≤ (i a).val ∧ (i a).val < win0_5.index t a * S16x128.size a + S16x128.size a := by
  show i ∈ ((View.whole main_v4_0).slice (win0_5.rect t)).set ↔ _
  rw [View.set_slice_whole, Rect.mem_set_unit]
  exact Iff.rfl

theorem mem_blk6 (t : Fin cfg0.N) (i : S256x1024.Idx) :
    i ∈ ((cfg0.win 6).blk t).view.set ↔ ∀ a : Fin 2, win0_6.index t a * S16x128.size a ≤ (i a).val ∧ (i a).val < win0_6.index t a * S16x128.size a + S16x128.size a := by
  show i ∈ ((View.whole main_v4_1).slice (win0_6.rect t)).set ↔ _
  rw [View.set_slice_whole, Rect.mem_set_unit]
  exact Iff.rfl

theorem mem_blk7 (t : Fin cfg0.N) (i : S256x1024x1024.Idx) :
    i ∈ ((cfg0.win 7).blk t).view.set ↔ ∀ a : Fin 3, win0_7.index t a * S16x128x1024.size a ≤ (i a).val ∧ (i a).val < win0_7.index t a * S16x128x1024.size a + S16x128x1024.size a := by
  show i ∈ ((View.whole main_v4_2).slice (win0_7.rect t)).set ↔ _
  rw [View.set_slice_whole, Rect.mem_set_unit]
  exact Iff.rfl

/-- Row r lies in row block r / 16 and column o in column block o / 128. -/
theorem cover5 (i : S256x1024.Idx) : ∃ t : Fin cfg0.N, (cfg0.win 5).flush t = true ∧ i ∈ ((cfg0.win 5).blk t).view.set := by
  have hi0 : (i 0).val < 256 := (i 0).isLt
  have hi1 : (i 1).val < 1024 := (i 1).isLt
  obtain ⟨t, ht⟩ := idx_onto ⟨(i 0).val / 16, by omega⟩ ⟨(i 1).val / 128, by omega⟩
  have q0 : win0_5.index t (0 : Fin 2) = (i 0).val / 16 := congrFun ht 0
  have q1 : win0_5.index t (1 : Fin 2) = (i 1).val / 128 := congrFun ht 1
  refine ⟨t, flush0_5 t, ?_⟩
  rw [mem_blk5]
  intro a
  match a with
  | ⟨0, _⟩ => show win0_5.index t (0 : Fin 2) * 16 ≤ (i 0).val ∧ (i 0).val < win0_5.index t (0 : Fin 2) * 16 + 16; omega
  | ⟨1, _⟩ => show win0_5.index t (1 : Fin 2) * 128 ≤ (i 1).val ∧ (i 1).val < win0_5.index t (1 : Fin 2) * 128 + 128; omega

theorem cover6 (i : S256x1024.Idx) : ∃ t : Fin cfg0.N, (cfg0.win 6).flush t = true ∧ i ∈ ((cfg0.win 6).blk t).view.set := by
  have hi0 : (i 0).val < 256 := (i 0).isLt
  have hi1 : (i 1).val < 1024 := (i 1).isLt
  obtain ⟨t, ht⟩ := idx_onto ⟨(i 0).val / 16, by omega⟩ ⟨(i 1).val / 128, by omega⟩
  have q0 : win0_5.index t (0 : Fin 2) = (i 0).val / 16 := congrFun ht 0
  have q1 : win0_5.index t (1 : Fin 2) = (i 1).val / 128 := congrFun ht 1
  obtain ⟨-, -, -, -, -, -, -, -, e6, e6', -⟩ := idx_facts t
  refine ⟨t, flush0_6 t, ?_⟩
  rw [mem_blk6]
  intro a
  match a with
  | ⟨0, _⟩ => show win0_6.index t (0 : Fin 2) * 16 ≤ (i 0).val ∧ (i 0).val < win0_6.index t (0 : Fin 2) * 16 + 16; omega
  | ⟨1, _⟩ => show win0_6.index t (1 : Fin 2) * 128 ≤ (i 1).val ∧ (i 1).val < win0_6.index t (1 : Fin 2) * 128 + 128; omega

theorem cover7 (i : S256x1024x1024.Idx) : ∃ t : Fin cfg0.N, (cfg0.win 7).flush t = true ∧ i ∈ ((cfg0.win 7).blk t).view.set := by
  have hi0 : (i 0).val < 256 := (i 0).isLt
  have hi1 : (i 1).val < 1024 := (i 1).isLt
  have hi2 : (i 2).val < 1024 := (i 2).isLt
  obtain ⟨t, ht⟩ := idx_onto ⟨(i 0).val / 16, by omega⟩ ⟨(i 1).val / 128, by omega⟩
  have q0 : win0_5.index t (0 : Fin 2) = (i 0).val / 16 := congrFun ht 0
  have q1 : win0_5.index t (1 : Fin 2) = (i 1).val / 128 := congrFun ht 1
  obtain ⟨-, -, -, -, -, -, -, -, -, -, e7, e7', e7'', -⟩ := idx_facts t
  refine ⟨t, flush0_7 t, ?_⟩
  rw [mem_blk7]
  intro a
  match a with
  | ⟨0, _⟩ => show win0_7.index t (0 : Fin 3) * 16 ≤ (i 0).val ∧ (i 0).val < win0_7.index t (0 : Fin 3) * 16 + 16; omega
  | ⟨1, _⟩ => show win0_7.index t (1 : Fin 3) * 128 ≤ (i 1).val ∧ (i 1).val < win0_7.index t (1 : Fin 3) * 128 + 128; omega
  | ⟨2, _⟩ => show win0_7.index t (2 : Fin 3) * 1024 ≤ (i 2).val ∧ (i 2).val < win0_7.index t (2 : Fin 3) * 1024 + 1024; omega

/-! ## The three output arrays after the region -/

theorem final5 (c : Dev nD) : (dats m 0 c).arrAt 5 cfg0.N
    = yFlat (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed5_eq m c t) cover5

theorem final6 (c : Dev nD) : (dats m 0 c).arrAt 6 cfg0.N
    = sigmaOut (m ((c : Thread nD τ).loc main_arg0)) (m ((c : Thread nD τ).loc main_arg2)) :=
  (dats m 0 c).arrAt_eq_of_cover 6 _ (fun t _ => flushed6_eq m c t) cover6

theorem final7 (c : Dev nD) : (dats m 0 c).arrAt 7 cfg0.N
    = mwOut (m ((c : Thread nD τ).loc main_arg0)) (m ((c : Thread nD τ).loc main_arg1)) (m ((c : Thread nD τ).loc main_arg2))
        (m ((c : Thread nD τ).loc main_arg3)) :=
  (dats m 0 c).arrAt_eq_of_cover 7 _ (fun t _ => flushed7_eq m c t) cover7

/-! ## The host's reshape after the region, and the run -/

/-- y over the flattened rows, cast back to [2,128,1024] row-major, is y: row 128·b + s is (b, s). -/
theorem unflatten_y (X : SX.Idx → EReal) (Mu Rho G : SW.Idx → EReal) (B : SB.Idx → EReal) :
    shapeCast S2x128x1024 (yFlat X Mu Rho G B) shapeCasts_S256x1024_S2x128x1024 = yOut X Mu Rho G B := by
  funext i
  have h0 : (i 0).val < 2 := (i 0).isLt
  have h1 : (i 1).val < 128 := (i 1).isLt
  have hhi : hi (⟨(i 0).val * 128 + (i 1).val, by omega⟩ : Fin 256) = i 0 := Fin.ext (by
    show ((i 0).val * 128 + (i 1).val) / 128 = (i 0).val
    omega)
  have hlo : lo (⟨(i 0).val * 128 + (i 1).val, by omega⟩ : Fin 256) = i 1 := Fin.ext (by
    show ((i 0).val * 128 + (i 1).val) % 128 = (i 1).val
    omega)
  rw [shapeCast_apply _ shapeCasts_S256x1024_S2x128x1024 i (ix2 (⟨(i 0).val * 128 + (i 1).val, by omega⟩ : Fin 256) (i 2)) (by
    show (S256x1024.rowMajor (ix2 (⟨(i 0).val * 128 + (i 1).val, by omega⟩ : Fin 256) (i 2))).val = (S2x128x1024.rowMajor i).val
    rw [Shape.rowMajor_val_two, Shape.rowMajor_val_three]
    rfl)]
  show mask X Rho G (hi _) (lo _) (i 2) * inner X Mu (hi _) (lo _) (i 2) + B (ix1 (i 2))
    = mask X Rho G (i 0) (i 1) (i 2) * inner X Mu (i 0) (i 1) (i 2) + B (ix1 (i 2))
  rw [hhi, hlo]

/-- After the region the host casts the y array back to [2,128,1024]. -/
theorem tail_y (c : Dev nD) : Pipeline.afterTail₀ cfgs (dats m) 0 (V0 m) [hostOps1] c main_v5
    = yOut (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  show StableHlo.after hostOps1 _ (Proc.devRef .tc main_v5) = _
  after_results
  have hw : (Pipeline.withArrays (cfgs 0).spec c (V0 m c) (fun w => (dats m 0 c).arrAt w (cfgs 0).N) (Proc.tc.devRef main_v4_0) : S256x1024.Idx → EReal)
      = yFlat (m ((c : Thread nD τ).loc main_arg0)) (m ((c : Thread nD τ).loc main_arg1)) (m ((c : Thread nD τ).loc main_arg2))
          (m ((c : Thread nD τ).loc main_arg3)) (m ((c : Thread nD τ).loc main_arg4)) :=
    (Pipeline.withArrays_arr spec0 launch0.win.arr_inj c _ _ 5).trans (final5 m c)
  exact (congrArg (fun v : S256x1024.Idx → EReal => shapeCast S2x128x1024 v shapeCasts_S256x1024_S2x128x1024) hw).trans
    (unflatten_y _ _ _ _ _)

/-- The kernel's run with its three results named: y, the scores, the masked weights; the arguments unchanged. -/
theorem run : θ_run defs (onTc (τ := τ) (main (F := Ideal))) ⟨m, fun _ => 0, ρ⟩ fun r => ∀ c : Dev nD,
      r.2.mem ((c.tc : Thread nD τ).loc main_v5)
        = yOut (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_v4_1)
        = sigmaOut (m ((c : Thread nD τ).loc main_arg0)) (m ((c : Thread nD τ).loc main_arg2))
      ∧ r.2.mem ((c.tc : Thread nD τ).loc main_v4_2)
        = mwOut (m ((c : Thread nD τ).loc main_arg0)) (m ((c : Thread nD τ).loc main_arg1)) (m ((c : Thread nD τ).loc main_arg2))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (tail_y m c),
      ((h c).1 6).trans (final6 m c),
      ((h c).1 7).trans (final7 m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.Sbl.Blocks

end
-- ==== Proof.RefValue.lean ====
/-
  The reference program's three results, read one element at a time at the ideal instance, are the layer's y, scores and
  masked weights of Spec.lean. The reference spells the mask in its straight-through form (mask + (s − t)) − (s − t); with
  finite x, rho and gate the score s and the threshold t are finite and that form is the mask (Spec.lean, ste_mask).
  Its reshapes of [2,128,1024] to [256,1024] are row-major: row p is (p / 128, p mod 128).
-/
import proofs.«167400_j63608465653841_2_alg».proof.Proof.Gen.ReferenceIdeal.Read
import proofs.«167400_j63608465653841_2_alg».proof.Proof.Spec
import Idealize.ShloMosaic.Lib.ValueIdx
import Idealize.ShloMosaic.PureOps.Ideal.Laws

noncomputable section

open scoped BigOperators
open Idealize.ShloMosaic Idealize.ShloMosaic.ValueIdx

namespace Cert.Sbl.Ref

open Cert.ReferenceIdeal Cert.ReferenceIdeal.Gen Cert.ReferenceIdeal.Read Cert.Sbl

/-- The reference's zero constant is the extended real zero. -/
theorem zero_cst (i : S_.Idx) : val_main_call0_cst (F := Ideal) i = 0 := Ideal.ofBits_zero_f32

/-- The reference's softplus of rho at an index: its NaN test never fires, and the stable branch is Spec's sp. -/
theorem ref_sp (x2 : (⟨S1024x1024, .f32⟩ : BufTy).Contents (Elt Ideal)) (i : S1024x1024.Idx) :
    val_main_v0 (F := Ideal) x2 i = sp (x2 i) := by
  have hc : ∀ a : EReal, Ideal.cmp .une a a = 0#1 := fun a => by simp [Ideal.cmp]
  rw [val_main_v0_apply, val_main_call0_v4_apply]
  show Scalar.select (Ideal.cmp .une _ _) _ _ = _
  rw [hc, select_zero, val_main_call0_v11_apply, val_main_call0_v1_apply, val_main_call0_v10_apply, val_main_call0_v9_apply,
    val_main_call0_v8_apply, val_main_call0_v7_apply, val_main_call0_v3_apply, val_main_call0_v0_apply, val_main_call0_v2_apply,
    zero_cst]
  rfl

/-- The reference's scores at (b, s, o). -/
theorem ref_score (x0 : (⟨S2x128x1024, .f32⟩ : BufTy).Contents (Elt Ideal)) (x2 : (⟨S1024x1024, .f32⟩ : BufTy).Contents (Elt Ideal))
    (i : S2x128x1024.Idx) (b : Fin 2) (s : Fin 128) (o : Fin 1024) (hb : b.val = (i 0).val) (hs : s.val = (i 1).val) (ho : o.val = (i 2).val) :
    val_main_v1 (F := Ideal) x0 x2 i = score x0 x2 b s o := by
  obtain rfl : b = i 0 := Fin.ext hb
  obtain rfl : s = i 1 := Fin.ext hs
  obtain rfl : o = i 2 := Fin.ext ho
  rw [val_main_v1_apply]
  unfold score
  refine Finset.sum_congr rfl fun k _ => ?_
  rw [ref_sp]
  have el : lidx_main_v1 i k = ix3 (i 0) (i 1) k := funext fun a => Fin.ext (by
    match a with | ⟨0, _⟩ => rfl | ⟨1, _⟩ => rfl | ⟨2, _⟩ => rfl)
  have er : ridx_main_v1 i k = ix2 (i 2) k := funext fun a => Fin.ext (by
    match a with | ⟨0, _⟩ => rfl | ⟨1, _⟩ => rfl)
  rw [el, er]
  rfl

/-- The reference's x · muᵀ at (b, s, o). -/
theorem ref_inner (x0 : (⟨S2x128x1024, .f32⟩ : BufTy).Contents (Elt Ideal)) (x1 : (⟨S1024x1024, .f32⟩ : BufTy).Contents (Elt Ideal))
    (i : S2x128x1024.Idx) (b : Fin 2) (s : Fin 128) (o : Fin 1024) (hb : b.val = (i 0).val) (hs : s.val = (i 1).val) (ho : o.val = (i 2).val) :
    val_main_v14 (F := Ideal) x0 x1 i = inner x0 x1 b s o := by
  obtain rfl : b = i 0 := Fin.ext hb
  obtain rfl : s = i 1 := Fin.ext hs
  obtain rfl : o = i 2 := Fin.ext ho
  rw [val_main_v14_apply]
  unfold inner
  refine Finset.sum_congr rfl fun k _ => ?_
  have el : lidx_main_v14 i k = ix3 (i 0) (i 1) k := funext fun a => Fin.ext (by
    match a with | ⟨0, _⟩ => rfl | ⟨1, _⟩ => rfl | ⟨2, _⟩ => rfl)
  have er : ridx_main_v14 i k = ix2 (i 2) k := funext fun a => Fin.ext (by
    match a with | ⟨0, _⟩ => rfl | ⟨1, _⟩ => rfl)
  rw [el, er]
  rfl

/-- The reference's threshold at o. -/
theorem ref_thr (x3 : (⟨S1024x1024, .f32⟩ : BufTy).Contents (Elt Ideal)) (j : S1024.Idx) (o : Fin 1024) (ho : o.val = (j 0).val) :
    val_main_v4 (F := Ideal) x3 j = thr x3 o := by
  obtain rfl : o = j 0 := Fin.ext ho
  rw [val_main_v4_apply, val_main_v2_apply, val_main_v3_apply, val_main_cst_0_apply, val_main_cst_apply]
  show Ideal.div (Ideal.ofBits .f32 0x00000000#32 + _) (Ideal.ofBits .f32 0x44800000#32) = _
  rw [Ideal.ofBits_zero_f32]
  unfold thr
  congr 2
  refine Finset.sum_congr rfl fun k _ => congrArg _ (funext fun a => Fin.ext ?_)
  match a with | ⟨0, _⟩ => rfl | ⟨1, _⟩ => rfl

/-- The reference's straight-through mask at (b, s, o) is the mask, for finite x, rho and gate. -/
theorem ref_mask (x0 : (⟨S2x128x1024, .f32⟩ : BufTy).Contents (Elt Ideal)) (x2 x3 : (⟨S1024x1024, .f32⟩ : BufTy).Contents (Elt Ideal))
    (hX : ∀ i, ∃ r : ℝ, x0 i = (r : EReal)) (hR : ∀ i, ∃ r : ℝ, x2 i = (r : EReal)) (hG : ∀ i, ∃ r : ℝ, x3 i = (r : EReal))
    (i : S2x128x1024.Idx) (b : Fin 2) (s : Fin 128) (o : Fin 1024) (hb : b.val = (i 0).val) (hs : s.val = (i 1).val) (ho : o.val = (i 2).val) :
    val_main_v13 (F := Ideal) x0 x2 x3 i = mask x0 x2 x3 b s o := by
  rw [val_main_v13_apply, val_main_v12_apply, val_main_v8_apply, val_main_v7_apply, val_main_v11_apply, val_main_v6_apply,
    val_main_v5_apply, val_main_v10_apply, val_main_v9_apply, ref_score x0 x2 i b s o hb hs ho,
    ref_thr x3 (idx_main_v5 (idx_main_v6 i)) o ho]
  exact ste_mask x0 x2 x3 hX hR hG b s o

/-- y. -/
theorem ref_y (x0 : (⟨S2x128x1024, .f32⟩ : BufTy).Contents (Elt Ideal)) (x1 x2 x3 : (⟨S1024x1024, .f32⟩ : BufTy).Contents (Elt Ideal))
    (x4 : (⟨S1024, .f32⟩ : BufTy).Contents (Elt Ideal))
    (hX : ∀ i, ∃ r : ℝ, x0 i = (r : EReal)) (hR : ∀ i, ∃ r : ℝ, x2 i = (r : EReal)) (hG : ∀ i, ∃ r : ℝ, x3 i = (r : EReal)) :
    val_main_v18 (F := Ideal) x0 x1 x2 x3 x4 = yOut x0 x1 x2 x3 x4 := by
  funext i
  rw [val_main_v18_apply, val_main_v15_apply, val_main_v17_apply, val_main_v16_apply,
    ref_mask x0 x2 x3 hX hR hG i (i 0) (i 1) (i 2) rfl rfl rfl, ref_inner x0 x1 i (i 0) (i 1) (i 2) rfl rfl rfl]
  show mask x0 x2 x3 (i 0) (i 1) (i 2) * inner x0 x1 (i 0) (i 1) (i 2) + x4 _ = mask x0 x2 x3 (i 0) (i 1) (i 2) * inner x0 x1 (i 0) (i 1) (i 2) + x4 _
  refine congrArg (_ + x4 ·) (funext fun a => Fin.ext ?_)
  match a with | ⟨0, _⟩ => rfl

/-- The scores over the flattened rows. -/
theorem ref_sigma (x0 : (⟨S2x128x1024, .f32⟩ : BufTy).Contents (Elt Ideal)) (x2 : (⟨S1024x1024, .f32⟩ : BufTy).Contents (Elt Ideal)) :
    val_main_v19 (F := Ideal) x0 x2 = sigmaOut x0 x2 := by
  funext j
  have h0 : (j 0).val < 256 := (j 0).isLt
  have h1 : (j 1).val < 1024 := (j 1).isLt
  rw [val_main_v19_apply]
  exact ref_score x0 x2 _ (hi (j 0)) (lo (j 0)) (j 1)
    (by show (j 0).val / 128 = ((j 0).val * 1024 + (j 1).val) / 131072; omega)
    (by show (j 0).val % 128 = ((j 0).val * 1024 + (j 1).val) / 1024 % 128; omega)
    (by show (j 1).val = ((j 0).val * 1024 + (j 1).val) % 1024; omega)

/-- The masked weights. -/
theorem ref_mw (x0 : (⟨S2x128x1024, .f32⟩ : BufTy).Contents (Elt Ideal)) (x1 x2 x3 : (⟨S1024x1024, .f32⟩ : BufTy).Contents (Elt Ideal))
    (hX : ∀ i, ∃ r : ℝ, x0 i = (r : EReal)) (hR : ∀ i, ∃ r : ℝ, x2 i = (r : EReal)) (hG : ∀ i, ∃ r : ℝ, x3 i = (r : EReal)) :
    val_main_v25 (F := Ideal) x0 x1 x2 x3 = mwOut x0 x1 x2 x3 := by
  funext i
  have h0 : (i 0).val < 256 := (i 0).isLt
  have h1 : (i 1).val < 1024 := (i 1).isLt
  rw [val_main_v25_apply, val_main_v23_apply, val_main_v21_apply, val_main_v20_apply, val_main_v24_apply, val_main_v22_apply,
    ref_mask x0 x2 x3 hX hR hG _ (hi (i 0)) (lo (i 0)) (i 1)
      (by show (i 0).val / 128 = ((i 0).val * 1024 + (i 1).val) / 131072; omega)
      (by show (i 0).val % 128 = ((i 0).val * 1024 + (i 1).val) / 1024 % 128; omega)
      (by show (i 1).val = ((i 0).val * 1024 + (i 1).val) % 1024; omega)]
  show mask x0 x2 x3 (hi (i 0)) (lo (i 0)) (i 1) * x1 _ = mask x0 x2 x3 (hi (i 0)) (lo (i 0)) (i 1) * x1 _
  refine congrArg (_ * x1 ·) (funext fun a => Fin.ext ?_)
  match a with | ⟨0, _⟩ => rfl | ⟨1, _⟩ => rfl

end Cert.Sbl.Ref

end
-- ==== Proof.lean ====
/-
  The sparse Bayesian linear layer: a tiled kernel against its plain reference, over the extended reals.

  Both programs compute, for x [2,128,1024] (256 rows of length 1024), weights mu, rho, gate [1024,1024] and a bias:
    score(p,o) = Σ_k x(p,k) · softplus(rho(o,k)),   threshold(o) = (Σ_k gate(o,k)) / 1024,
    mask(p,o) = [score(p,o) > threshold(o)],   y = mask · (x · muᵀ) + bias,   masked(p,o,d) = mask(p,o) · mu(o,d),
  and return y, the scores and the masked weights. The kernel tiles the work over an 8 × 16 grid and rounds its matrix
  products' operands to a shorter float format, which is the identity on the extended reals; the reference writes the mask
  in the straight-through form (mask + (s − t)) − (s − t), which is the mask exactly when s and t are finite — the one place
  the finiteness of the inputs is used (x, rho and gate finite make every score and threshold finite).

  Spec.lean states the three results as whole-array functions and proves that law; Payload.lean reads the kernel body's
  stores one element at a time; Blocks.lean goes from the blocks the grid points write back to the three arrays, through
  the host's reshapes before and after the region; RefValue.lean reads the reference's results one element at a time;
  Finite.lean turns the precondition into "every entry is a real number". Here the five claims are assembled.
-/
import proofs.«167400_j63608465653841_2_alg».proof.Defs
import proofs.«167400_j63608465653841_2_alg».proof.Proof.Gen.Kernel
import proofs.«167400_j63608465653841_2_alg».proof.Proof.Gen.Kernel.Skeleton
import proofs.«167400_j63608465653841_2_alg».proof.Proof.Gen.Kernel.Launch
import proofs.«167400_j63608465653841_2_alg».proof.Proof.Gen.Kernel.Points
import proofs.«167400_j63608465653841_2_alg».proof.Proof.Gen.Kernel.Frame
import proofs.«167400_j63608465653841_2_alg».proof.Proof.Gen.KernelIdeal
import proofs.«167400_j63608465653841_2_alg».proof.Proof.Gen.KernelIdeal.Skeleton
import proofs.«167400_j63608465653841_2_alg».proof.Proof.Gen.KernelIdeal.Launch
import proofs.«167400_j63608465653841_2_alg».proof.Proof.Gen.KernelIdeal.Points
import proofs.«167400_j63608465653841_2_alg».proof.Proof.Gen.KernelIdeal.Frame
import proofs.«167400_j63608465653841_2_alg».proof.Proof.Gen.ReferenceIdeal
import proofs.«167400_j63608465653841_2_alg».proof.Proof.Gen.Pre_finite_inputs
import proofs.«167400_j63608465653841_2_alg».proof.Proof.Gen.ReferenceIdeal.Run
import proofs.«167400_j63608465653841_2_alg».proof.Proof.Gen.ReferenceIdeal.Read
import proofs.«167400_j63608465653841_2_alg».proof.Proof.Spec
import proofs.«167400_j63608465653841_2_alg».proof.Proof.Finite
import proofs.«167400_j63608465653841_2_alg».proof.Proof.Blocks
import proofs.«167400_j63608465653841_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The two idealized programs end with the same y, scores and masked weights: the kernel's arrays are the three
    whole-array functions of the arguments, and so are the reference's once the straight-through mask is the mask,
    which holds because the precondition makes x, rho and gate finite. -/
theorem algebraic : Cert.algebraic_KernelIdeal_ReferenceIdeal := by
  intro m ρ m' ρ' hpre hagree
  refine ⟨_, _, _, Cert.Sbl.Blocks.run m ρ, ?_⟩
  refine (θ_run Cert.ReferenceIdeal.defs _ _).mono (fun _ h c => ?_) (Cert.ReferenceIdeal.Value.run (F := Ideal) m' ρ')
  obtain ⟨hX, hR, hG, -, -⟩ := Cert.SblFinite.finite_of_pre _ _ _ _ _ (hpre c)
  obtain ⟨a0, a1, a2, a3, a4⟩ := hagree c
  refine ⟨(h c).1.trans ?_, (h c).2.1.trans ?_, (h c).2.2.1.trans ?_, (h c).2.2.2⟩
  · rw [Cert.ReferenceIdeal.Read.val_main_v18_eq, a0, a1, a2, a3, a4]
    exact Cert.Sbl.Ref.ref_y _ _ _ _ _ hX hR hG
  · rw [Cert.ReferenceIdeal.Read.val_main_v19_eq, a0, a2]
    exact Cert.Sbl.Ref.ref_sigma _ _
  · rw [Cert.ReferenceIdeal.Read.val_main_v25_eq, a0, a1, a2, a3]
    exact Cert.Sbl.Ref.ref_mw _ _ _ _ hX hR hG

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
